-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_

variable [Facts]

def fn_part1 {F : FTy → Type} [FloatOps F] (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S4x1x2048x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_v13 main_v16
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .f32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .f32 = 32 ∨ (Rect.block (s := S4x1x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048, .f32⟩
  | .hbm, ⟨13, _⟩ => ⟨S4x16x2048x1, .f32⟩
  | .hbm, ⟨14, _⟩ => ⟨S_, .f32⟩
  | .hbm, ⟨15, _⟩ => ⟨S4x16x2048x1, .f32⟩
  | .hbm, ⟨16, _⟩ => ⟨S4x16x2048x1, .f32⟩
  | .hbm, ⟨17, _⟩ => ⟨S4x16x2048x2048, .f32⟩
  | .hbm, ⟨18, _⟩ => ⟨S4x16x2048x2048, .f32⟩
  | .hbm, ⟨19, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttentionRow.lean ====
/-
  One query row of masked exponential attention, as a function on the extended reals.

  A query row `qr` (64 numbers) meets every key row `kr k` (2048 rows of 64): the score of key `k` is the inner
  product scaled by the constant `scale`, its weight the exponential of the score times the mask entry `mr k` — no
  maximum is subtracted. The weights are normalised by their sum plus the constant `eps`, and the context is the
  normalised weights' combination of the value rows `vr k`. Every query row of every batch entry and head is computed
  this way from its own query row, its head's keys and values, and its batch entry's mask row, so both programs'
  results are this one function read at the right rows.
-/
import Idealize.ShloMosaic.PureOps.Ideal
import Idealize.ShloMosaic.Lib.ValueIdx

noncomputable section

namespace Cert.Attention

open Idealize.ShloMosaic Idealize.ShloMosaic.ValueIdx

/-- The score's scale, one eighth (the reciprocal square root of the head dimension 64), as the word both programs carry. -/
abbrev scale : EReal := Ideal.ofBits .f32 0x3E000000#32
/-- The normaliser's guard, the single-precision number nearest to 1e-8, as the word both programs carry. -/
abbrev eps : EReal := Ideal.ofBits .f32 0x322BCC77#32

/-- The unnormalised weight of key `k`: `exp(⟨q, k⟩ · scale) · mask`. -/
def weight (qr : Fin 64 → EReal) (kr : Fin 2048 → Fin 64 → EReal) (mr : Fin 2048 → EReal) (k : Fin 2048) : EReal :=
  Ideal.exp ((∑ d : Fin 64, qr d * kr k d) * scale) * mr k

/-- The row's normaliser: the sum of its weights, plus `eps`. -/
def norm (qr : Fin 64 → EReal) (kr : Fin 2048 → Fin 64 → EReal) (mr : Fin 2048 → EReal) : EReal :=
  (∑ k : Fin 2048, weight qr kr mr k) + eps

/-- The attention weight of key `k`: its weight over the row's normaliser. -/
def prob (qr : Fin 64 → EReal) (kr : Fin 2048 → Fin 64 → EReal) (mr : Fin 2048 → EReal) (k : Fin 2048) : EReal :=
  Ideal.div (weight qr kr mr k) (norm qr kr mr)

/-- The context's coordinate `d`: the attention weights' combination of the value rows. -/
def context (qr : Fin 64 → EReal) (kr : Fin 2048 → Fin 64 → EReal) (mr : Fin 2048 → EReal) (vr : Fin 2048 → Fin 64 → EReal)
    (d : Fin 64) : EReal :=
  ∑ k : Fin 2048, prob qr kr mr k * vr k d

/-! ## The two result arrays -/

/-- Queries, keys and values: `[4, 16, 2048, 64]`. -/
abbrev SQ : Shape := ⟨4, ![4, 16, 2048, 64]⟩
/-- The mask, shared by the heads: `[4, 1, 2048, 2048]`. -/
abbrev SM : Shape := ⟨4, ![4, 1, 2048, 2048]⟩
/-- The attention weights: `[4, 16, 2048, 2048]`. -/
abbrev SA : Shape := ⟨4, ![4, 16, 2048, 2048]⟩

/-- Query row `q` of head `h` of batch entry `b`. -/
abbrev qRow (Q : SQ.Idx → EReal) (b : Fin 4) (h : Fin 16) (q : Fin 2048) : Fin 64 → EReal := fun d => Q (ix4 b h q d)
/-- The rows of a `[4, 16, 2048, 64]` array at head `h` of batch entry `b` (the head's keys, or its values). -/
abbrev hRows (K : SQ.Idx → EReal) (b : Fin 4) (h : Fin 16) : Fin 2048 → Fin 64 → EReal := fun k d => K (ix4 b h k d)
/-- Mask row `q` of batch entry `b`. -/
abbrev mRow (M : SM.Idx → EReal) (b : Fin 4) (q : Fin 2048) : Fin 2048 → EReal := fun k => M (ix4 b (0 : Fin 1) q k)

/-- The attention weights at explicit coordinates. -/
def attnAt (Q K : SQ.Idx → EReal) (M : SM.Idx → EReal) (b : Fin 4) (h : Fin 16) (q k : Fin 2048) : EReal :=
  prob (qRow Q b h q) (hRows K b h) (mRow M b q) k

/-- The context at explicit coordinates. -/
def ctxAt (Q K V : SQ.Idx → EReal) (M : SM.Idx → EReal) (b : Fin 4) (h : Fin 16) (q : Fin 2048) (d : Fin 64) : EReal :=
  context (qRow Q b h q) (hRows K b h) (mRow M b q) (hRows V b h) d

/-- The attention weights as an array. -/
def attnArr (Q K : SQ.Idx → EReal) (M : SM.Idx → EReal) : SA.Idx → EReal := fun i =>
  attnAt Q K M ⟨(i 0).val, (i 0).isLt⟩ ⟨(i 1).val, (i 1).isLt⟩ ⟨(i 2).val, (i 2).isLt⟩ ⟨(i 3).val, (i 3).isLt⟩

/-- The context as an array. -/
def ctxArr (Q K V : SQ.Idx → EReal) (M : SM.Idx → EReal) : SQ.Idx → EReal := fun i =>
  ctxAt Q K V M ⟨(i 0).val, (i 0).isLt⟩ ⟨(i 1).val, (i 1).isLt⟩ ⟨(i 2).val, (i 2).isLt⟩ ⟨(i 3).val, (i 3).isLt⟩

theorem attnArr_ix4 (Q K : SQ.Idx → EReal) (M : SM.Idx → EReal) (b : Fin 4) (h : Fin 16) (q k : Fin 2048) :
    attnArr Q K M (ix4 b h q k) = attnAt Q K M b h q k := rfl

theorem ctxArr_ix4 (Q K V : SQ.Idx → EReal) (M : SM.Idx → EReal) (b : Fin 4) (h : Fin 16) (q : Fin 2048) (d : Fin 64) :
    ctxArr Q K V M (ix4 b h q d) = ctxAt Q K V M b h q d := rfl

end Cert.Attention

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.BlockAttention.lean ====
/-
  One grid point's arithmetic is masked exponential attention on the rows it holds.

  A grid point holds a tile of 512 query rows, all 2048 key rows and value rows of its head, and the tile's 512 mask
  rows. The body multiplies the query tile with the transposed keys on the matrix unit (a sum over the 64 entries, from a
  zero accumulator; the rounding to bfloat16 on the way in is the identity on the extended reals), scales,
  exponentiates, multiplies by the mask tile, sums each row, adds the guard, divides, and multiplies the quotient with the
  values (a sum over the 2048 keys). Row `r` of the tile therefore gets `Attention.prob` and `Attention.context` of
  query row `r`, the head's keys and values, and mask row `r`.
-/
import proofs.«128467_j54889682043185_2_alg».proof.Proof.Gen.KernelIdeal.Skeleton
import proofs.«128467_j54889682043185_2_alg».proof.Proof.AttentionRow
import proofs.«128467_j54889682043185_2_alg».proof.Proof.LibColumnBroadcast
import proofs.«128467_j54889682043185_2_alg».proof.Proof.LibUnitAxes
import Idealize.ShloMosaic.Lib.Pipeline.Value
import Idealize.ShloMosaic.Lib.ValueIdx
import Idealize.ShloMosaic.PureOps.Ideal.Laws

noncomputable section

namespace Cert.KernelIdeal.AttentionBlock

open Cert.KernelIdeal Cert.KernelIdeal.Gen Cert.Attention Cert.Layout
open Idealize.ShloMosaic Idealize.ShloMosaic.ValueIdx

/-- Query row `r` of a query tile. -/
abbrev tileRow (x0 : Vec Ideal S1x1x512x64 .f32) (r : Fin 512) : Fin 64 → EReal := fun d => x0 (ix4 (0 : Fin 1) (0 : Fin 1) r d)
/-- The rows of a head's key (or value) block. -/
abbrev headRows (x1 : Vec Ideal S1x1x2048x64 .f32) : Fin 2048 → Fin 64 → EReal := fun k d => x1 (ix4 (0 : Fin 1) (0 : Fin 1) k d)
/-- Mask row `r` of a mask tile. -/
abbrev maskRow (x3 : Vec Ideal S1x1x512x2048 .f32) (r : Fin 512) : Fin 2048 → EReal := fun k => x3 (ix4 (0 : Fin 1) (0 : Fin 1) r k)

/-! ## The scores: the query tile times the transposed keys -/

theorem scores_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl

theorem scores_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- The first product contracts the 64 entries of a query row with those of a key row. -/
theorem scores_apply (q : FVec Ideal S512x64 .bf16) (k : FVec Ideal S2048x64 .bf16) (r : Fin 512) (c : Fin 2048) :
    matmul dot_S512x64_S2048x64_S512x2048_1_1_0_0_n_n none q k (constant S512x2048 .f32 0x00000000#32) (ix2 r c)
      = ∑ d : Fin 64, q (ix2 r d) * k (ix2 c d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r c) ((contrEquiv1 dot_S512x64_S2048x64_S512x2048_1_1_0_0_n_n 64 rfl rfl).symm d) = ix2 r d :=
    funext fun a => Fin.ext (by
      match a with
      | ⟨0, _⟩ => exact scores_lhs0 _ _
      | ⟨1, _⟩ => exact (dot_S512x64_S2048x64_S512x2048_1_1_0_0_n_n.lhsIdx_val_of_single rfl _ _).trans hd)
  have er : dot_S512x64_S2048x64_S512x2048_1_1_0_0_n_n.rhsIdx (ix2 r c) ((contrEquiv1 dot_S512x64_S2048x64_S512x2048_1_1_0_0_n_n 64 rfl rfl).symm d) = ix2 c d :=
    funext fun a => Fin.ext (by
      match a with
      | ⟨0, _⟩ => exact scores_rhs0 _ _
      | ⟨1, _⟩ => exact (dot_S512x64_S2048x64_S512x2048_1_1_0_0_n_n.rhsIdx_val_of_single rfl _ _).trans hd)
  rw [el, er]

/-! ## The context: the attention tile times the values -/

theorem mix_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

theorem mix_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The second product contracts the 2048 keys of an attention row with a column of the values. -/
theorem mix_apply (p : FVec Ideal S512x2048 .bf16) (v : FVec Ideal S2048x64 .bf16) (r : Fin 512) (d : Fin 64) :
    matmul dot_S512x2048_S2048x64_S512x64_1_0_0_1_n_n none p v (constant S512x64 .f32 0x00000000#32) (ix2 r d)
      = ∑ k : Fin 2048, p (ix2 r k) * v (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun a => Fin.ext (by
      match a with
      | ⟨0, _⟩ => exact mix_lhs0 _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun a => Fin.ext (by
      match a with
      | ⟨0, _⟩ => exact (dot_S512x2048_S2048x64_S512x64_1_0_0_1_n_n.rhsIdx_val_of_single rfl _ _).trans hk
      | ⟨1, _⟩ => exact mix_rhs1 _ _)
  rw [el, er]

/-! ## The weights, the normaliser, the quotient -/

/-- The tile of weights before normalisation, as the body computes it: the scores scaled, exponentiated, masked. -/
def tileWeights (x0 : Vec Ideal S1x1x512x64 .f32) (x1 : Vec Ideal S1x1x2048x64 .f32) (x3 : Vec Ideal S1x1x512x2048 .f32) :
    FVec Ideal S512x2048 .f32 :=
  mulf (exp (mulf (matmul dot_S512x64_S2048x64_S512x2048_1_1_0_0_n_n none
        (truncf .bf16 (shapeCast S512x64 x0 shapeCasts_S1x1x512x64_S512x64) bitsLt_bf16_f32)
        (truncf .bf16 (shapeCast S2048x64 x1 shapeCasts_S1x1x2048x64_S2048x64) bitsLt_bf16_f32)
        (constant S512x2048 .f32 0x00000000#32))
      (broadcast S512x2048 (Scalar.ofBits .f32 0x3E000000#32))))
    (shapeCast S512x2048 x3 shapeCasts_S1x1x512x2048_S512x2048)

/-- Row `r`, key `c` of the tile of weights is the row function's weight. -/
theorem tileWeights_apply (x0 : Vec Ideal S1x1x512x64 .f32) (x1 : Vec Ideal S1x1x2048x64 .f32) (x3 : Vec Ideal S1x1x512x2048 .f32)
    (r : Fin 512) (c : Fin 2048) :
    tileWeights x0 x1 x3 (ix2 r c) = weight (tileRow x0 r) (headRows x1) (maskRow x3 r) c := by
  unfold tileWeights weight
  show Ideal.exp (matmul (F := Ideal) dot_S512x64_S2048x64_S512x2048_1_1_0_0_n_n none _ _ _ (ix2 r c) * Ideal.ofBits .f32 0x3E000000#32)
      * shapeCast S512x2048 x3 shapeCasts_S1x1x512x2048_S512x2048 (ix2 r c) = _
  rw [scores_apply, shapeCast_11ab_ab_apply]
  simp only [truncf_apply, shapeCast_11ab_ab_apply]

/-- A row sum of a `[512, 2048]` tile, from the zero word, is the sum over the row's 2048 entries. -/
theorem rowSum_apply (w : FVec Ideal S512x2048 .f32) (r : Fin 512) :
    multiReduction .add [1] S512 w 0x00000000#32 reduces_S512x2048_S512 (.inl rfl) rfl (ix1 r) = ∑ k : Fin 2048, w (ix2 r k) := by
  refine (Ideal.multiReduction_add_single w 0x00000000#32 reduces_S512x2048_S512 (.inl rfl) rfl (ix1 r)).trans ?_
  refine Finset.sum_congr rfl fun k _ => congrArg w ?_
  funext a
  apply Fin.ext
  match a with
  | ⟨0, _⟩ => rfl
  | ⟨1, _⟩ => rfl

/-- The attention tile: the weights over each row's sum plus the guard, kept as a column and repeated along the row. -/
theorem pay2_eq (x0 : Vec Ideal S1x1x512x64 .f32) (x1 : Vec Ideal S1x1x2048x64 .f32) (x3 : Vec Ideal S1x1x512x2048 .f32) :
    k0_pay2 (F := Ideal) x0 x1 x3 =
      divf (tileWeights x0 x1 x3) (broadcastTo S512x2048 (addf (shapeCast S512x1
        (multiReduction .add [1] S512 (tileWeights x0 x1 x3) 0x00000000#32 reduces_S512x2048_S512 (.inl rfl) rfl) shapeCasts_S512_S512x1)
        (broadcast S512x1 (Scalar.ofBits .f32 0x322BCC77#32))) broadcasts_S512x1_S512x2048) := rfl

/-- Row `r`, key `c` of the attention tile is the row function's attention weight. -/
theorem pay2_apply (x0 : Vec Ideal S1x1x512x64 .f32) (x1 : Vec Ideal S1x1x2048x64 .f32) (x3 : Vec Ideal S1x1x512x2048 .f32)
    (r : Fin 512) (c : Fin 2048) :
    k0_pay2 (F := Ideal) x0 x1 x3 (ix2 r c) = prob (tileRow x0 r) (headRows x1) (maskRow x3 r) c := by
  rw [pay2_eq]
  show Ideal.div (tileWeights x0 x1 x3 (ix2 r c)) (broadcastTo S512x2048 _ broadcasts_S512x1_S512x2048 (ix2 r c)) = _
  rw [tileWeights_apply, broadcastTo_a1_ab_apply]
  show Ideal.div _ (shapeCast S512x1 _ shapeCasts_S512_S512x1 (ix2 r (0 : Fin 1)) + Ideal.ofBits .f32 0x322BCC77#32) = _
  rw [shapeCast_a_a1_apply, rowSum_apply]
  simp only [tileWeights_apply]
  rfl

/-- The context tile: the attention tile times the values. -/
theorem pay4_eq (x0 : Vec Ideal S1x1x512x64 .f32) (x1 x2 : Vec Ideal S1x1x2048x64 .f32) (x3 : Vec Ideal S1x1x512x2048 .f32) :
    k0_pay4 (F := Ideal) x0 x1 x2 x3 =
      matmul dot_S512x2048_S2048x64_S512x64_1_0_0_1_n_n none (truncf .bf16 (k0_pay2 x0 x1 x3) bitsLt_bf16_f32)
        (truncf .bf16 (shapeCast S2048x64 x2 shapeCasts_S1x1x2048x64_S2048x64) bitsLt_bf16_f32) (constant S512x64 .f32 0x00000000#32) := rfl

/-- Row `r`, entry `d` of the context tile is the row function's context. -/
theorem pay4_apply (x0 : Vec Ideal S1x1x512x64 .f32) (x1 x2 : Vec Ideal S1x1x2048x64 .f32) (x3 : Vec Ideal S1x1x512x2048 .f32)
    (r : Fin 512) (d : Fin 64) :
    k0_pay4 (F := Ideal) x0 x1 x2 x3 (ix2 r d) = context (tileRow x0 r) (headRows x1) (maskRow x3 r) (headRows x2) d := by
  rw [pay4_eq, mix_apply]
  simp only [truncf_apply, pay2_apply, shapeCast_11ab_ab_apply]
  rfl

end Cert.KernelIdeal.AttentionBlock

end
-- ==== Proof.TileStores.lean ====
/-
  What one grid point stores: the body writes each of its two output tiles once, whole. Entry `(0, 0, r, c)` of the
  attention tile is the attention weight of key `c` for the tile's query row `r`; entry `(0, 0, r, d)` of the
  context tile is coordinate `d` of that row's context.
-/
import proofs.«128467_j54889682043185_2_alg».proof.Proof.Gen.KernelIdeal.Value
import proofs.«128467_j54889682043185_2_alg».proof.Proof.BlockAttention

noncomputable section

namespace Cert.KernelIdeal.AttentionTiles

open Cert.KernelIdeal Cert.KernelIdeal.Gen Cert.KernelIdeal.Value Cert.KernelIdeal.AttentionBlock Cert.Attention
open Idealize.ShloMosaic Idealize.ShloMosaic.ValueIdx

theorem zero_offsets : (![0, 0, 0, 0] : Fin 4 → Nat) = fun _ => 0 := funext fun a => by fin_cases a <;> rfl

/-- The attention tile after the body, entry by entry. -/
theorem attnTile_apply (x0 : Vec Ideal S1x1x512x64 .f32) (x1 x2 : Vec Ideal S1x1x2048x64 .f32) (x3 : Vec Ideal S1x1x512x2048 .f32)
    (r : Fin 512) (c : Fin 2048) :
    out0_5 x0 x1 x2 x3 (ix4 (0 : Fin 1) (0 : Fin 1) r c) = prob (tileRow x0 r) (headRows x1) (maskRow x3 r) c := by
  unfold out0_5
  simp only [View.ld_unit_zero (S := S1x1x512x64) zero_offsets, View.ld_unit_zero (S := S1x1x2048x64) zero_offsets,
    View.ld_unit_zero (S := S1x1x512x2048) zero_offsets]
  rw [canon5_eq]
  show k0_pay2 x0 x1 x3 (ix5_0 (ix4 (0 : Fin 1) (0 : Fin 1) r c)) = _
  rw [show ix5_0 (ix4 (0 : Fin 1) (0 : Fin 1) r c) = ix2 r c from
    funext fun a => Fin.ext (by match a with | ⟨0, _⟩ => rfl | ⟨1, _⟩ => rfl)]
  exact pay2_apply x0 x1 x3 r c

/-- The context tile after the body, entry by entry. -/
theorem ctxTile_apply (x0 : Vec Ideal S1x1x512x64 .f32) (x1 x2 : Vec Ideal S1x1x2048x64 .f32) (x3 : Vec Ideal S1x1x512x2048 .f32)
    (r : Fin 512) (d : Fin 64) :
    out0_4 x0 x1 x2 x3 (ix4 (0 : Fin 1) (0 : Fin 1) r d)
      = context (tileRow x0 r) (headRows x1) (maskRow x3 r) (headRows x2) d := by
  unfold out0_4
  simp only [View.ld_unit_zero (S := S1x1x512x64) zero_offsets, View.ld_unit_zero (S := S1x1x2048x64) zero_offsets,
    View.ld_unit_zero (S := S1x1x512x2048) zero_offsets]
  rw [canon4_eq]
  show k0_pay4 x0 x1 x2 x3 (ix4_0 (ix4 (0 : Fin 1) (0 : Fin 1) r d)) = _
  rw [show ix4_0 (ix4 (0 : Fin 1) (0 : Fin 1) r d) = ix2 r d from
    funext fun a => Fin.ext (by match a with | ⟨0, _⟩ => rfl | ⟨1, _⟩ => rfl)]
  exact pay4_apply x0 x1 x2 x3 r d

end Cert.KernelIdeal.AttentionTiles

end
-- ==== Proof.GridRows.lean ====
/-
  Which rows a grid point holds. The grid is (batch entry, query tile, head), the head moving fastest. At a point
  the query window, the context window and the attention window all sit at block `(b, h, qi, 0)`: query rows
  `512·qi … 512·qi + 511` of head `h` of batch entry `b`; the key and value windows at `(b, h, 0, 0)`: all the
  head's rows; the mask window at `(b, 0, qi, 0)`: the same query rows of the batch entry's one mask. Every block
  `(b, h, qi)` of the outputs is some point's.
-/
import proofs.«128467_j54889682043185_2_alg».proof.Proof.Gen.KernelIdeal.Frame
import Idealize.ShloMosaic.Lib.ValueIdx

noncomputable section

namespace Cert.KernelIdeal.AttentionGrid

open Cert.KernelIdeal Cert.KernelIdeal.Gen
open Idealize.ShloMosaic Idealize.ShloMosaic.TcCoe Idealize.SL.Sem Idealize.ShloMosaic.ValueIdx

/-- The six windows' block indices at a point, relative to the attention window's. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (0 : Fin 4) ≤ 3 ∧ win0_5.index t (1 : Fin 4) ≤ 15 ∧ win0_5.index t (2 : Fin 4) ≤ 3
    ∧ win0_5.index t (3 : Fin 4) = 0 :=
  (by decide +kernel : ∀ t : Fin grid0.N, _)

/-- The point of batch entry `b`, head `h`, query tile `qi`: the head moves fastest, then the query tile. -/
theorem point_lt (b : Fin 4) (h : Fin 16) (qi : Fin 4) : (b.val * 4 + qi.val) * 16 + h.val < grid0.N := by
  rw [N_0]; omega

def pointOf (b : Fin 4) (h : Fin 16) (qi : Fin 4) : Fin cfg0.N := ⟨(b.val * 4 + qi.val) * 16 + h.val, point_lt b h qi⟩

/-- The output windows' block at that point is `(b, h, qi, 0)`. -/
theorem idx_at : ∀ (b : Fin 4) (h : Fin 16) (qi : Fin 4),
    win0_5.index (pointOf b h qi) = ![b.val, h.val, qi.val, 0] ∧ win0_4.index (pointOf b h qi) = ![b.val, h.val, qi.val, 0] :=
  (by decide +kernel : ∀ (b : Fin 4) (h : Fin 16) (qi : Fin 4),
    win0_5.index (⟨(b.val * 4 + qi.val) * 16 + h.val, point_lt b h qi⟩ : Fin grid0.N) = ![b.val, h.val, qi.val, 0]
    ∧ win0_4.index (⟨(b.val * 4 + qi.val) * 16 + h.val, point_lt b h qi⟩ : Fin grid0.N) = ![b.val, h.val, qi.val, 0])

variable {F : FTy → Type} [FloatOps F]
variable (m : (ℓ : Loc nD τ sig) → Buf (Elt F) ℓ)

/-- The query tile's row `r` is query row `q` of `(b, h)`, when the window sits at block `(b, h, ·, 0)` and `q` is
    the tile's row `r`. -/
theorem queryTile_read (c : Dev nD) (t : Fin cfg0.N) (b : Fin 4) (h : Fin 16) (q : Fin 2048) (r : Fin 512) (d : Fin 64)
    (e0 : win0_0.index t (0 : Fin 4) = b.val) (e1 : win0_0.index t (1 : Fin 4) = h.val)
    (e2 : win0_0.index t (2 : Fin 4) * 512 + r.val = q.val) (e3 : win0_0.index t (3 : Fin 4) = 0) :
    iblk m c 0 t (ix4 (0 : Fin 1) (0 : Fin 1) r d) = m ((c : Thread nD τ).loc main_arg0) (ix4 b h q d) := by
  unfold iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = q.val; omega
  | ⟨3, _⟩ => show win0_0.index t (3 : Fin 4) * 64 + 1 * d.val = d.val; omega

/-- The key block's row `k` is key row `k` of `(b, h)`. -/
theorem keyBlock_read (c : Dev nD) (t : Fin cfg0.N) (b : Fin 4) (h : Fin 16) (k : Fin 2048) (d : Fin 64)
    (e0 : win0_1.index t (0 : Fin 4) = b.val) (e1 : win0_1.index t (1 : Fin 4) = h.val)
    (e2 : win0_1.index t (2 : Fin 4) = 0) (e3 : win0_1.index t (3 : Fin 4) = 0) :
    iblk m c 1 t (ix4 (0 : Fin 1) (0 : Fin 1) k d) = m ((c : Thread nD τ).loc main_arg1) (ix4 b h k d) := by
  unfold iblk
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

/-- The value block's row `k` is value row `k` of `(b, h)`. -/
theorem valueBlock_read (c : Dev nD) (t : Fin cfg0.N) (b : Fin 4) (h : Fin 16) (k : Fin 2048) (d : Fin 64)
    (e0 : win0_2.index t (0 : Fin 4) = b.val) (e1 : win0_2.index t (1 : Fin 4) = h.val)
    (e2 : win0_2.index t (2 : Fin 4) = 0) (e3 : win0_2.index t (3 : Fin 4) = 0) :
    iblk m c 2 t (ix4 (0 : Fin 1) (0 : Fin 1) k d) = m ((c : Thread nD τ).loc main_arg2) (ix4 b h k d) := by
  unfold iblk
  rw [View.read_apply]
  show V m c main_arg2 _ = m ((c : Thread nD τ).loc main_arg2) _
  refine congrArg (m ((c : Thread nD τ).loc main_arg2)) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-- The mask tile's row `r` is mask row `q` of batch entry `b`. -/
theorem maskTile_read (c : Dev nD) (t : Fin cfg0.N) (b : Fin 4) (q : Fin 2048) (r : Fin 512) (k : Fin 2048)
    (e0 : win0_3.index t (0 : Fin 4) = b.val) (e1 : win0_3.index t (1 : Fin 4) = 0)
    (e2 : win0_3.index t (2 : Fin 4) * 512 + r.val = q.val) (e3 : win0_3.index t (3 : Fin 4) = 0) :
    iblk m c 3 t (ix4 (0 : Fin 1) (0 : Fin 1) r k) = m ((c : Thread nD τ).loc main_arg3) (ix4 b (0 : Fin 1) q k) := by
  unfold iblk
  rw [View.read_apply]
  show V m c main_arg3 _ = m ((c : Thread nD τ).loc main_arg3) _
  refine congrArg (m ((c : Thread nD τ).loc main_arg3)) (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * r.val = q.val; omega
  | ⟨3, _⟩ => show win0_3.index t (3 : Fin 4) * 2048 + 1 * k.val = k.val; omega

end Cert.KernelIdeal.AttentionGrid

end
-- ==== Proof.KernelArrays.lean ====
/-
  The two result arrays after the kernel's run. Every grid point writes, into block `(b, h, qi)` of each output, the
  attention weights and the contexts of the 512 query rows it holds, computed from that head's keys and values and the
  batch entry's mask rows; the blocks tile both arrays, so after the run the attention output is the attention array and
  the context output the context array of the argument arrays.
-/
import proofs.«128467_j54889682043185_2_alg».proof.Proof.TileStores
import proofs.«128467_j54889682043185_2_alg».proof.Proof.GridRows

noncomputable section

namespace Cert.KernelIdeal.AttentionArrays

open Cert.KernelIdeal Cert.KernelIdeal.Gen Cert.KernelIdeal.Value Cert.KernelIdeal.AttentionBlock Cert.KernelIdeal.AttentionTiles
open Cert.KernelIdeal.AttentionGrid Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The attention array of the arguments as launched. -/
abbrev attnOf (c : Dev nD) : Buf (Elt Ideal) ((c : Thread nD τ).loc main_v0_1) :=
  attnArr (m ((c : Thread nD τ).loc main_arg0)) (m ((c : Thread nD τ).loc main_arg1)) (m ((c : Thread nD τ).loc main_arg3))

/-- The context array of the arguments as launched. -/
abbrev ctxOf (c : Dev nD) : Buf (Elt Ideal) ((c : Thread nD τ).loc main_v0_0) :=
  ctxArr (m ((c : Thread nD τ).loc main_arg0)) (m ((c : Thread nD τ).loc main_arg1)) (m ((c : Thread nD τ).loc main_arg2))
    (m ((c : Thread nD τ).loc main_arg3))

/-! ## The rows a point holds are the arrays' rows -/

section Rows
variable (c : Dev nD) (t : Fin cfg0.N) (b : Fin 4) (h : Fin 16) (q : Fin 2048) (r : Fin 512)
  (hb : win0_5.index t (0 : Fin 4) = b.val) (hh : win0_5.index t (1 : Fin 4) = h.val)
  (hq : win0_5.index t (2 : Fin 4) * 512 + r.val = q.val)
include hb hh hq

theorem queryRow_eq : tileRow (iblk m c 0 t) r = qRow (m ((c : Thread nD τ).loc main_arg0)) b h q := by
  obtain ⟨a0, a1, a2, a3, -⟩ := idx_facts t
  exact funext fun d => queryTile_read m c t b h q r d (a0.trans hb) (a1.trans hh) (by rw [a2]; exact hq) a3

omit hq in
theorem keyRows_eq : headRows (iblk m c 1 t) = hRows (m ((c : Thread nD τ).loc main_arg1)) b h := by
  obtain ⟨-, -, -, -, a0, a1, a2, a3, -⟩ := idx_facts t
  exact funext fun k => funext fun d => keyBlock_read m c t b h k d (a0.trans hb) (a1.trans hh) a2 a3

omit hq in
theorem valueRows_eq : headRows (iblk m c 2 t) = hRows (m ((c : Thread nD τ).loc main_arg2)) b h := by
  obtain ⟨-, -, -, -, -, -, -, -, a0, a1, a2, a3, -⟩ := idx_facts t
  exact funext fun k => funext fun d => valueBlock_read m c t b h k d (a0.trans hb) (a1.trans hh) a2 a3

omit hh in
theorem maskRow_eq : maskRow (iblk m c 3 t) r = mRow (m ((c : Thread nD τ).loc main_arg3)) b q := by
  obtain ⟨-, -, -, -, -, -, -, -, -, -, -, -, a0, a1, a2, a3, -⟩ := idx_facts t
  exact funext fun k => maskTile_read m c t b q r k (a0.trans hb) a1 (by rw [a2]; exact hq) a3

end Rows

/-! ## What a point writes back -/

/-- Point `t` writes block `t` of the attention array. -/
theorem attn_flushed (c : Dev nD) (t : Fin cfg0.N) :
    (dats m 0 c).flushed 5 t = ((cfg0.win 5).blk t).view.read (Elt Ideal) (attnOf m c) := by
  rw [flushed5]
  obtain ⟨-, -, -, -, -, -, -, -, -, -, -, -, -, -, -, -, -, -, -, -, l0, l1, l2, l3⟩ := idx_facts t
  funext j
  obtain ⟨z0, z1, r, k, rfl⟩ : ∃ (z0 z1 : Fin 1) (r : Fin 512) (k : Fin 2048), j = ix4 z0 z1 r k :=
    ⟨j 0, j 1, j 2, j 3, eq_ix4 j⟩
  obtain rfl : z0 = 0 := Subsingleton.elim _ _
  obtain rfl : z1 = 0 := Subsingleton.elim _ _
  have hr : r.val < 512 := r.isLt
  show out0_5 (iblk m c 0 t) (iblk m c 1 t) (iblk m c 2 t) (iblk m c 3 t) (ix4 (0 : Fin 1) (0 : Fin 1) r k)
    = attnOf m c (((cfg0.win 5).blk t).view.emb (ix4 (0 : Fin 1) (0 : Fin 1) r k))
  refine (attnTile_apply (iblk m c 0 t) (iblk m c 1 t) (iblk m c 2 t) (iblk m c 3 t) r k).trans ?_
  obtain ⟨b, hb⟩ : ∃ b : Fin 4, win0_5.index t (0 : Fin 4) = b.val := ⟨⟨win0_5.index t (0 : Fin 4), by omega⟩, rfl⟩
  obtain ⟨h, hh⟩ : ∃ h : Fin 16, win0_5.index t (1 : Fin 4) = h.val := ⟨⟨win0_5.index t (1 : Fin 4), by omega⟩, rfl⟩
  obtain ⟨q, hq⟩ : ∃ q : Fin 2048, win0_5.index t (2 : Fin 4) * 512 + r.val = q.val :=
    ⟨⟨win0_5.index t (2 : Fin 4) * 512 + r.val, by omega⟩, rfl⟩
  have e : ((cfg0.win 5).blk t).view.emb (ix4 (0 : Fin 1) (0 : Fin 1) r k) = ix4 b h q k := by
    funext a
    apply Fin.ext
    match a with
    | ⟨0, _⟩ => show win0_5.index t (0 : Fin 4) * 1 + 1 * 0 = b.val; omega
    | ⟨1, _⟩ => show win0_5.index t (1 : Fin 4) * 1 + 1 * 0 = h.val; omega
    | ⟨2, _⟩ => show win0_5.index t (2 : Fin 4) * 512 + 1 * r.val = q.val; omega
    | ⟨3, _⟩ => show win0_5.index t (3 : Fin 4) * 2048 + 1 * k.val = k.val; omega
  rw [e]
  show _ = attnAt _ _ _ b h q k
  unfold attnAt
  rw [queryRow_eq m c t b h q r hb hh hq, keyRows_eq m c t b h hb hh, maskRow_eq m c t b q r hb hq]

/-- Point `t` writes block `t` of the context array. -/
theorem ctx_flushed (c : Dev nD) (t : Fin cfg0.N) :
    (dats m 0 c).flushed 4 t = ((cfg0.win 4).blk t).view.read (Elt Ideal) (ctxOf m c) := by
  rw [flushed4]
  obtain ⟨-, -, -, -, -, -, -, -, -, -, -, -, -, -, -, -, o0, o1, o2, o3, l0, l1, l2, l3⟩ := idx_facts t
  funext j
  obtain ⟨z0, z1, r, d, rfl⟩ : ∃ (z0 z1 : Fin 1) (r : Fin 512) (d : Fin 64), j = ix4 z0 z1 r d :=
    ⟨j 0, j 1, j 2, j 3, eq_ix4 j⟩
  obtain rfl : z0 = 0 := Subsingleton.elim _ _
  obtain rfl : z1 = 0 := Subsingleton.elim _ _
  have hr : r.val < 512 := r.isLt
  show out0_4 (iblk m c 0 t) (iblk m c 1 t) (iblk m c 2 t) (iblk m c 3 t) (ix4 (0 : Fin 1) (0 : Fin 1) r d)
    = ctxOf m c (((cfg0.win 4).blk t).view.emb (ix4 (0 : Fin 1) (0 : Fin 1) r d))
  refine (ctxTile_apply (iblk m c 0 t) (iblk m c 1 t) (iblk m c 2 t) (iblk m c 3 t) r d).trans ?_
  obtain ⟨b, hb⟩ : ∃ b : Fin 4, win0_5.index t (0 : Fin 4) = b.val := ⟨⟨win0_5.index t (0 : Fin 4), by omega⟩, rfl⟩
  obtain ⟨h, hh⟩ : ∃ h : Fin 16, win0_5.index t (1 : Fin 4) = h.val := ⟨⟨win0_5.index t (1 : Fin 4), by omega⟩, rfl⟩
  obtain ⟨q, hq⟩ : ∃ q : Fin 2048, win0_5.index t (2 : Fin 4) * 512 + r.val = q.val :=
    ⟨⟨win0_5.index t (2 : Fin 4) * 512 + r.val, by omega⟩, rfl⟩
  have e : ((cfg0.win 4).blk t).view.emb (ix4 (0 : Fin 1) (0 : Fin 1) r d) = ix4 b h q d := by
    funext a
    apply Fin.ext
    match a with
    | ⟨0, _⟩ => show win0_4.index t (0 : Fin 4) * 1 + 1 * 0 = b.val; omega
    | ⟨1, _⟩ => show win0_4.index t (1 : Fin 4) * 1 + 1 * 0 = h.val; omega
    | ⟨2, _⟩ => show win0_4.index t (2 : Fin 4) * 512 + 1 * r.val = q.val; omega
    | ⟨3, _⟩ => show win0_4.index t (3 : Fin 4) * 64 + 1 * d.val = d.val; omega
  rw [e]
  show _ = ctxAt _ _ _ _ b h q d
  unfold ctxAt
  rw [queryRow_eq m c t b h q r hb hh hq, keyRows_eq m c t b h hb hh, valueRows_eq m c t b h hb hh,
    maskRow_eq m c t b q r hb hq]

/-! ## The blocks tile the arrays -/

/-- An index of the attention output is in point `t`'s block iff each coordinate is in the block's range on its axis. -/
theorem mem_attnBlock (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the context output is in point `t`'s block iff each coordinate is in the block's range on its axis. -/
theorem mem_ctxBlock (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Entry `(b, h, q, k)` of the attention output is written by the point of `(b, h, q / 512)`. -/
theorem attn_cover (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  obtain ⟨t, ht⟩ : ∃ t : Fin cfg0.N, win0_5.index t = ![(i 0).val, (i 1).val, (i 2).val / 512, 0] :=
    ⟨pointOf ⟨(i 0).val, h0⟩ ⟨(i 1).val, h1⟩ ⟨(i 2).val / 512, by omega⟩, (idx_at _ _ _).1⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_attnBlock]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Entry `(b, h, q, d)` of the context output is written by the point of `(b, h, q / 512)`. -/
theorem ctx_cover (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ : ∃ t : Fin cfg0.N, win0_4.index t = ![(i 0).val, (i 1).val, (i 2).val / 512, 0] :=
    ⟨pointOf ⟨(i 0).val, h0⟩ ⟨(i 1).val, h1⟩ ⟨(i 2).val / 512, by omega⟩, (idx_at _ _ _).2⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_ctxBlock]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run, and the run -/

theorem attn_final (c : Dev nD) : (dats m 0 c).arrAt 5 cfg0.N = attnOf m c :=
  (dats m 0 c).arrAt_eq_of_cover 5 (attnOf m c) (fun t _ => attn_flushed m c t) attn_cover

theorem ctx_final (c : Dev nD) : (dats m 0 c).arrAt 4 cfg0.N = ctxOf m c :=
  (dats m 0 c).arrAt_eq_of_cover 4 (ctxOf m c) (fun t _ => ctx_flushed m c t) ctx_cover

/-- Every weakly fair execution of the idealized kernel terminates with the context output at the context array and the
    attention output at the attention array of the arguments, which end unchanged. -/
theorem run : θ_run defs (onTc (τ := τ) (main (F := Ideal))) ⟨m, fun _ => 0, ρ⟩ fun r => ∀ c : Dev nD,
      r.2.mem ((c : Thread nD τ).loc main_v0_0) = ctxOf m c
      ∧ r.2.mem ((c : Thread nD τ).loc main_v0_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (ctx_final m c), (h c).2.1.trans (attn_final m c), (h c).2.2⟩)
    (run_blocks m ρ)

end Cert.KernelIdeal.AttentionArrays

end
-- ==== Proof.ReferenceAttention.lean ====
/-
  The reference computes masked exponential attention row by row.

  Read at an index `(b, h, q, k)`, the reference's attention weights are the batched inner product of query row
  `(b, h, q)` with key row `(b, h, k)`, scaled, exponentiated, multiplied by the mask entry `(b, 0, q, k)`
  (the mask is repeated over the heads), and divided by the row's sum of such products plus the guard — the row
  function `Attention.prob`. Read at `(b, h, q, d)`, its context is the sum over the keys of those weights
  times the value entries `(b, h, k, d)` — `Attention.context`. The host's sum starts from a zero word, which
  contributes nothing.
-/
import proofs.«128467_j54889682043185_2_alg».proof.Proof.Gen.ReferenceIdeal.Read
import proofs.«128467_j54889682043185_2_alg».proof.Proof.AttentionRow

noncomputable section

namespace Cert.ReferenceIdeal.AttentionValue

open Cert.ReferenceIdeal Cert.ReferenceIdeal.Read Cert.Attention
open Idealize.ShloMosaic Idealize.ShloMosaic.ValueIdx

/-- The query-side index of the scores' contraction: query row `(b, h, q)`, entry `d`. -/
theorem lidx_scores (b : Fin 4) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

/-- The key-side index of the scores' contraction: key row `(b, h, k)`, entry `d`. -/
theorem ridx_scores (b : Fin 4) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

/-- The mask is repeated over the heads. -/
theorem idx_mask (b : Fin 4) (h : Fin 16) (q k : Fin 2048) :
    idx_main_v4 (ix4 b h q k) = ix4 b (0 : Fin 1) q k :=
  funext fun a => Fin.ext (by match a with | ⟨0, _⟩ => rfl | ⟨1, _⟩ => rfl | ⟨2, _⟩ => rfl | ⟨3, _⟩ => rfl)

/-- The normaliser of `(b, h, q, k)` is summed along row `(b, h, q)`, whatever `k`. -/
theorem idx_rowsum (b : Fin 4) (h : Fin 16) (q k k' : Fin 2048) :
    idx_main_v6 (idx_main_v7 (idx_main_v10 (ix4 b h q k))) k' = ix4 b h q k' :=
  funext fun a => Fin.ext (by match a with | ⟨0, _⟩ => rfl | ⟨1, _⟩ => rfl | ⟨2, _⟩ => rfl | ⟨3, _⟩ => rfl)

/-- The weights before normalisation, at an index. -/
theorem weights_at (x0 x1 : (⟨S4x16x2048x64, .f32⟩ : BufTy).Contents (Elt Ideal)) (x3 : (⟨S4x1x2048x2048, .f32⟩ : BufTy).Contents (Elt Ideal))
    (b : Fin 4) (h : Fin 16) (q k : Fin 2048) :
    val_main_v5 (F := Ideal) x0 x1 x3 (ix4 b h q k) = weight (qRow x0 b h q) (hRows x1 b h) (mRow x3 b q) k := by
  rw [val_main_v5_apply, val_main_v3_apply, val_main_v2_apply, val_main_v0_apply, val_main_v1_apply, val_main_cst_apply,
    val_main_v4_apply, idx_mask]
  simp only [lidx_scores, ridx_scores]
  rfl

/-- The reference's attention weights at an index are the row function's. -/
theorem attn_at (x0 x1 : (⟨S4x16x2048x64, .f32⟩ : BufTy).Contents (Elt Ideal)) (x3 : (⟨S4x1x2048x2048, .f32⟩ : BufTy).Contents (Elt Ideal))
    (b : Fin 4) (h : Fin 16) (q k : Fin 2048) :
    val_main_v11 (F := Ideal) x0 x1 x3 (ix4 b h q k) = attnAt x0 x1 x3 b h q k := by
  rw [val_main_v11_apply, val_main_v10_apply, val_main_v9_apply, val_main_v7_apply, val_main_v6_apply, val_main_v8_apply,
    val_main_cst_1_apply, val_main_cst_0_apply, weights_at]
  simp only [idx_rowsum, weights_at]
  show Ideal.div _ ((Ideal.ofBits .f32 0x00000000#32 + _) + _) = _
  rw [Ideal.ofBits_zero_f32, zero_add]
  rfl

/-- The reference's attention weights are the attention array. -/
theorem attn_eq (x0 x1 : (⟨S4x16x2048x64, .f32⟩ : BufTy).Contents (Elt Ideal)) (x3 : (⟨S4x1x2048x2048, .f32⟩ : BufTy).Contents (Elt Ideal)) :
    val_main_v11 (F := Ideal) x0 x1 x3 = attnArr x0 x1 x3 := by
  funext i
  obtain ⟨b, h, q, k, rfl⟩ : ∃ (b : Fin 4) (h : Fin 16) (q k : Fin 2048), i = ix4 b h q k := ⟨i 0, i 1, i 2, i 3, eq_ix4 i⟩
  rw [attn_at, attnArr_ix4]

/-- The weight-side index of the context's contraction: attention row `(b, h, q)`, key `k`. -/
theorem lidx_context (b : Fin 4) (h : Fin 16) (q : Fin 2048) (d : Fin 64) (k : Fin 2048) :
    lidx_main_v12 (ix4 b h q d) k = ix4 b h q k :=
  funext fun a => Fin.ext (by match a with | ⟨0, _⟩ => rfl | ⟨1, _⟩ => rfl | ⟨2, _⟩ => rfl | ⟨3, _⟩ => rfl)

/-- The value-side index of the context's contraction: value row `(b, h, k)`, entry `d`. -/
theorem ridx_context (b : Fin 4) (h : Fin 16) (q : Fin 2048) (d : Fin 64) (k : Fin 2048) :
    ridx_main_v12 (ix4 b h q d) k = ix4 b h k d :=
  funext fun a => Fin.ext (by match a with | ⟨0, _⟩ => rfl | ⟨1, _⟩ => rfl | ⟨2, _⟩ => rfl | ⟨3, _⟩ => rfl)

/-- The reference's context is the context array. -/
theorem ctx_eq (x0 x1 x2 : (⟨S4x16x2048x64, .f32⟩ : BufTy).Contents (Elt Ideal)) (x3 : (⟨S4x1x2048x2048, .f32⟩ : BufTy).Contents (Elt Ideal)) :
    val_main_v12 (F := Ideal) x0 x1 x2 x3 = ctxArr x0 x1 x2 x3 := by
  funext i
  obtain ⟨b, h, q, d, rfl⟩ : ∃ (b : Fin 4) (h : Fin 16) (q : Fin 2048) (d : Fin 64), i = ix4 b h q d := ⟨i 0, i 1, i 2, i 3, eq_ix4 i⟩
  rw [val_main_v12_apply, ctxArr_ix4]
  simp only [lidx_context, ridx_context, attn_at]
  rfl

end Cert.ReferenceIdeal.AttentionValue

end
-- ==== Proof.lean ====
/-
  Masked exponential attention without maximum subtraction: the tiled kernel against the whole-array reference, over
  the extended reals.

  Both programs compute, for every batch entry `b`, head `h` and query row `q`, the weights
  `exp(⟨Q[b,h,q], K[b,h,k]⟩ / 8) · mask[b,0,q,k]`, normalise them by their sum over `k` plus the guard `1e-8`
  (the same single-precision word on both sides), and combine the value rows `V[b,h,k]` with the normalised weights.
  The kernel does it one tile of 512 query rows at a time, with both matrix products on the matrix unit after a rounding
  to bfloat16 that is the identity on the extended reals; the reference does it with two batched contractions over the
  whole arrays. A query row never meets another query row, so the tiling changes nothing: each side is the one row
  function of `Proof/AttentionRow.lean` read at the right rows (`Proof/KernelArrays.lean` for the kernel,
  `Proof/ReferenceAttention.lean` for the reference). No law of arithmetic beyond dropping a zero summand is used, so the
  finiteness of the inputs is never opened. The idealization rewrote no operation, so there is nothing to preserve.
-/
import proofs.«128467_j54889682043185_2_alg».proof.Defs
import proofs.«128467_j54889682043185_2_alg».proof.Proof.Gen.Kernel
import proofs.«128467_j54889682043185_2_alg».proof.Proof.Gen.Kernel.Frame
import proofs.«128467_j54889682043185_2_alg».proof.Proof.Gen.KernelIdeal
import proofs.«128467_j54889682043185_2_alg».proof.Proof.Gen.KernelIdeal.Frame
import proofs.«128467_j54889682043185_2_alg».proof.Proof.Gen.KernelIdeal.Value
import proofs.«128467_j54889682043185_2_alg».proof.Proof.Gen.ReferenceIdeal
import proofs.«128467_j54889682043185_2_alg».proof.Proof.Gen.ReferenceIdeal.Run
import proofs.«128467_j54889682043185_2_alg».proof.Proof.Gen.ReferenceIdeal.Read
import proofs.«128467_j54889682043185_2_alg».proof.Proof.Gen.Pre_finite_inputs
import proofs.«128467_j54889682043185_2_alg».proof.Proof.KernelArrays
import proofs.«128467_j54889682043185_2_alg».proof.Proof.ReferenceAttention
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments, both idealized programs end with the context array and the attention array
    of those arguments. -/
theorem algebraic : Cert.algebraic_KernelIdeal_ReferenceIdeal := by
  intro m ρ m' ρ' _ hagree
  refine ⟨fun c => Cert.KernelIdeal.AttentionArrays.ctxOf m c, fun c => Cert.KernelIdeal.AttentionArrays.attnOf m c,
    Cert.KernelIdeal.AttentionArrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v12_eq, Cert.ReferenceIdeal.AttentionValue.ctx_eq,
      (hagree c).1, (hagree c).2.1, (hagree c).2.2.1, (hagree c).2.2.2]
  · rw [(h c).2.1, Cert.ReferenceIdeal.Read.val_main_v11_eq, Cert.ReferenceIdeal.AttentionValue.attn_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
